-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x196608x64 : Shape := ⟨3, ![1, 196608, 64]⟩
abbrev S1572864 : Shape := ⟨1, ![1572864]⟩
abbrev S320x64 : Shape := ⟨2, ![320, 64]⟩
abbrev S1 : Shape := ⟨1, ![1]⟩
abbrev S_ : Shape := ⟨0, ![]⟩

class Facts : Prop where
  bcast_S_S1x196608x64 : S_.BroadcastsInDim S1x196608x64 (![] : Fin 0 → Fin S1x196608x64.rank)
  reducesTo_S1x196608x64_S_d0_1_2 : S1x196608x64.ReducesTo [0, 1, 2] S_
  h_S_ : 0 < S_.numel
  bcast_S_S1572864 : S_.BroadcastsInDim S1572864 (![] : Fin 0 → Fin S1572864.rank)
  reducesTo_S1572864_S_d0 : S1572864.ReducesTo [0] S_
  bcast_S_S320x64 : S_.BroadcastsInDim S320x64 (![] : Fin 0 → Fin S320x64.rank)
  reducesTo_S320x64_S_d0_1 : S320x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1x196608x64 .f32) (main_arg1 : FVec F S1572864 .f32) (main_arg2 : FVec F S320x64 .f32) (main_arg3 : FVec F S1 .f32) (main_arg4 : IVec S1572864 32) (main_arg5 : IVec S1572864 32) : IVec S_ 1 :=
  let main_v0 : FVec F S1x196608x64 .f32 := Host.absf main_arg0
  let main_cst : FVec F S_ .f32 := constant S_ .f32 0x7F800000#32
  let main_v1 : FVec F S1x196608x64 .f32 := broadcastInDim S1x196608x64 ![] bcast_S_S1x196608x64 main_cst
  let main_v2 : IVec S1x196608x64 1 := cmpf .olt main_v0 main_v1
  let main_c : IVec S_ 1 := constantI S_ 1 1#1
  let main_v3 : IVec S_ 1 := (fun x v => Host.reduce IntOp.andi x v reducesTo_S1x196608x64_S_d0_1_2 h_S_) main_v2 main_c
  let main_v4 : FVec F S1572864 .f32 := Host.absf main_arg1
  let main_cst_0 : FVec F S_ .f32 := constant S_ .f32 0x7F800000#32
  let main_v5 : FVec F S1572864 .f32 := broadcastInDim S1572864 ![] bcast_S_S1572864 main_cst_0
  let main_v6 : IVec S1572864 1 := cmpf .olt main_v4 main_v5
  let main_c_1 : IVec S_ 1 := constantI S_ 1 1#1
  let main_v7 : IVec S_ 1 := (fun x v => Host.reduce IntOp.andi x v reducesTo_S1572864_S_d0 h_S_) main_v6 main_c_1
  let main_v8 : IVec S_ 1 := andi main_v3 main_v7
  let main_v9 : FVec F S320x64 .f32 := Host.absf main_arg2
  let main_cst_2 : FVec F S_ .f32 := constant S_ .f32 0x7F800000#32
  let main_v10 : FVec F S320x64 .f32 := broadcastInDim S320x64 ![] bcast_S_S320x64 main_cst_2
  let main_v11 : IVec S320x64 1 := cmpf .olt main_v9 main_v10
  let main_c_3 : IVec S_ 1 := constantI S_ 1 1#1
  let main_v12 : IVec S_ 1 := (fun x v => Host.reduce IntOp.andi x v reducesTo_S320x64_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1x196608x64 : Shape := ⟨3, ![1, 196608, 64]⟩
abbrev S1572864 : Shape := ⟨1, ![1572864]⟩
abbrev S320x64 : Shape := ⟨2, ![320, 64]⟩
abbrev S1 : Shape := ⟨1, ![1]⟩
abbrev S_ : Shape := ⟨0, ![]⟩
abbrev S1572864x1 : Shape := ⟨2, ![1572864, 1]⟩
abbrev S1x1572864x64 : Shape := ⟨3, ![1, 1572864, 64]⟩
abbrev S1x1572864x1 : Shape := ⟨3, ![1, 1572864, 1]⟩
abbrev S1x196608x320 : Shape := ⟨3, ![1, 196608, 320]⟩
abbrev S196608x320 : Shape := ⟨2, ![196608, 320]⟩
abbrev S196608x64 : Shape := ⟨2, ![196608, 64]⟩
abbrev S4096x320 : Shape := ⟨2, ![4096, 320]⟩
abbrev S4096x64 : Shape := ⟨2, ![4096, 64]⟩

abbrev nBuf : Space → Nat
  | .hbm => 114
  | .vmem => 6
  | .smem => 0
  | _ => 0

abbrev bufTy : (tb : Table) → Fin (tcTables nBuf tb) → BufTy
  | .hbm, ⟨0, _⟩ => ⟨S1x196608x64, .f32⟩
  | .hbm, ⟨1, _⟩ => ⟨S1572864, .f32⟩
  | .hbm, ⟨2, _⟩ => ⟨S320x64, .f32⟩
  | .hbm, ⟨3, _⟩ => ⟨S1, .f32⟩
  | .hbm, ⟨4, _⟩ => ⟨S1572864, .i32⟩
  | .hbm, ⟨5, _⟩ => ⟨S1572864, .i32⟩
  | .hbm, ⟨6, _⟩ => ⟨S_, .i32⟩
  | .hbm, ⟨7, _⟩ => ⟨S1572864, .i32⟩
  | .hbm, ⟨8, _⟩ => ⟨S1572864, .i1⟩
  | .hbm, ⟨9, _⟩ => ⟨S_, .i32⟩
  | .hbm, ⟨10, _⟩ => ⟨S1572864, .i32⟩
  | .hbm, ⟨11, _⟩ => ⟨S1572864, .i32⟩
  | .hbm, ⟨12, _⟩ => ⟨S1572864, .i32⟩
  | .hbm, ⟨13, _⟩ => ⟨S1572864x1, .i32⟩
  | .hbm, ⟨14, _⟩ => ⟨S1x1572864x64, .f32⟩
  | .hbm, ⟨15, _⟩ => ⟨S1x1572864x1, .f32⟩
  | .hbm, ⟨16, _⟩ => ⟨S1x1572864x64, .f32⟩
  | .hbm, ⟨17, _⟩ => ⟨S1x1572864x64, .f32⟩
  | .hbm, ⟨18, _⟩ => ⟨S_, .f32⟩
  | .hbm, ⟨19, _⟩ => ⟨S1x196608x64, .f32⟩
  | .hbm, ⟨20, _⟩ => ⟨S_, .i32⟩
  | .hbm, ⟨21, _⟩ => ⟨S1572864, .i32⟩
  | .hbm, ⟨22, _⟩ => ⟨S1572864, .i1⟩
  | .hbm, ⟨23, _⟩ => ⟨S_, .i32⟩
  | .hbm, ⟨24, _⟩ => ⟨S1572864, .i32⟩
  | .hbm, ⟨25, _⟩ => ⟨S1572864, .i32⟩
  | .hbm, ⟨26, _⟩ => ⟨S1572864, .i32⟩
  | .hbm, ⟨27, _⟩ => ⟨S1572864x1, .i32⟩
  | .hbm, ⟨28, _⟩ => ⟨S1x196608x64, .f32⟩
  | .hbm, ⟨29, _⟩ => ⟨S_, .i32⟩
  | .hbm, ⟨30, _⟩ => ⟨S1572864, .i32⟩
  | .hbm, ⟨31, _⟩ => ⟨S1572864, .i1⟩
  | .hbm, ⟨32, _⟩ => ⟨S_, .i32⟩
  | .hbm, ⟨33, _⟩ => ⟨S1572864, .i32⟩
  | .hbm, ⟨34, _⟩ => ⟨S1572864, .i32⟩
  | .hbm, ⟨35, _⟩ => ⟨S1572864, .i32⟩
  | .hbm, ⟨36, _⟩ => ⟨S1572864x1, .i32⟩
  | .hbm, ⟨37, _⟩ => ⟨S1x1572864x64, .f32⟩
  | .hbm, ⟨38, _⟩ => ⟨S1x1572864x1, .f32⟩
  | .hbm, ⟨39, _⟩ => ⟨S1x1572864x64, .f32⟩
  | .hbm, ⟨40, _⟩ => ⟨S1x1572864x64, .f32⟩
  | .hbm, ⟨41, _⟩ => ⟨S_, .f32⟩
  | .hbm, ⟨42, _⟩ => ⟨S1x196608x64, .f32⟩
  | .hbm, ⟨43, _⟩ => ⟨S_, .i32⟩
  | .hbm, ⟨44, _⟩ => ⟨S1572864, .i32⟩
  | .hbm, ⟨45, _⟩ => ⟨S1572864, .i1⟩
  | .hbm, ⟨46, _⟩ => ⟨S_, .i32⟩
  | .hbm, ⟨47, _⟩ => ⟨S1572864, .i32⟩
  | .hbm, ⟨48, _⟩ => ⟨S1572864, .i32⟩
  | .hbm, ⟨49, _⟩ => ⟨S1572864, .i32⟩
  | .hbm, ⟨50, _⟩ => ⟨S1572864x1, .i32⟩
  | .hbm, ⟨51, _⟩ => ⟨S1x196608x64, .f32⟩
  | .hbm, ⟨52, _⟩ => ⟨S_, .f32⟩
  | .hbm, ⟨53, _⟩ => ⟨S1x196608x64, .f32⟩
  | .hbm, ⟨54, _⟩ => ⟨S1x196608x64, .f32⟩
  | .hbm, ⟨55, _⟩ => ⟨S1x196608x64, .f32⟩
  | .hbm, ⟨56, _⟩ => ⟨S_, .i32⟩
  | .hbm, ⟨57, _⟩ => ⟨S1572864, .i32⟩
  | .hbm, ⟨58, _⟩ => ⟨S1572864, .i1⟩
  | .hbm, ⟨59, _⟩ => ⟨S_, .i32⟩
  | .hbm, ⟨60, _⟩ => ⟨S1572864, .i32⟩
  | .hbm, ⟨61, _⟩ => ⟨S1572864, .i32⟩
  | .hbm, ⟨62, _⟩ => ⟨S1572864, .i32⟩
  | .hbm, ⟨63, _⟩ => ⟨S1572864x1, .i32⟩
  | .hbm, ⟨64, _⟩ => ⟨S1x1572864x64, .f32⟩
  | .hbm, ⟨65, _⟩ => ⟨S1x1572864x1, .f32⟩
  | .hbm, ⟨66, _⟩ => ⟨S1x1572864x64, .f32⟩
  | .hbm, ⟨67, _⟩ => ⟨S1x1572864x64, .f32⟩
  | .hbm, ⟨68, _⟩ => ⟨S_, .f32⟩
  | .hbm, ⟨69, _⟩ => ⟨S1x196608x64, .f32⟩
  | .hbm, ⟨70, _⟩ => ⟨S_, .i32⟩
  | .hbm, ⟨71, _⟩ => ⟨S1572864, .i32⟩
  | .hbm, ⟨72, _⟩ => ⟨S1572864, .i1⟩
  | .hbm, ⟨73, _⟩ => ⟨S_, .i32⟩
  | .hbm, ⟨74, _⟩ => ⟨S1572864, .i32⟩
  | .hbm, ⟨75, _⟩ => ⟨S1572864, .i32⟩
  | .hbm, ⟨76, _⟩ => ⟨S1572864, .i32⟩
  | .hbm, ⟨77, _⟩ => ⟨S1572864x1, .i32⟩
  | .hbm, ⟨78, _⟩ => ⟨S1x196608x64, .f32⟩
  | .hbm, ⟨79, _⟩ => ⟨S_, .f32⟩
  | .hbm, ⟨80, _⟩ => ⟨S1x196608x64, .f32⟩
  | .hbm, ⟨81, _⟩ => ⟨S1x196608x64, .f32⟩
  | .hbm, ⟨82, _⟩ => ⟨S1x196608x64, .f32⟩
  | .hbm, ⟨83, _⟩ => ⟨S_, .i32⟩
  | .hbm, ⟨84, _⟩ => ⟨S1572864, .i32⟩
  | .hbm, ⟨85, _⟩ => ⟨S1572864, .i1⟩
  | .hbm, ⟨86, _⟩ => ⟨S_, .i32⟩
  | .hbm, ⟨87, _⟩ => ⟨S1572864, .i32⟩
  | .hbm, ⟨88, _⟩ => ⟨S1572864, .i32⟩
  | .hbm, ⟨89, _⟩ => ⟨S1572864, .i32⟩
  | .hbm, ⟨90, _⟩ => ⟨S1572864x1, .i32⟩
  | .hbm, ⟨91, _⟩ => ⟨S1x1572864x64, .f32⟩
  | .hbm, ⟨92, _⟩ => ⟨S1x1572864x1, .f32⟩
  | .hbm, ⟨93, _⟩ => ⟨S1x1572864x64, .f32⟩
  | .hbm, ⟨94, _⟩ => ⟨S1x1572864x64, .f32⟩
  | .hbm, ⟨95, _⟩ => ⟨S_, .f32⟩
  | .hbm, ⟨96, _⟩ => ⟨S1x196608x64, .f32⟩
  | .hbm, ⟨97, _⟩ => ⟨S_, .i32⟩
  | .hbm, ⟨98, _⟩ => ⟨S1572864, .i32⟩
  | .hbm, ⟨99, _⟩ => ⟨S1572864, .i1⟩
  | .hbm, ⟨100, _⟩ => ⟨S_, .i32⟩
  | .hbm, ⟨101, _⟩ => ⟨S1572864, .i32⟩
  | .hbm, ⟨102, _⟩ => ⟨S1572864, .i32⟩
  | .hbm, ⟨103, _⟩ => ⟨S1572864, .i32⟩
  | .hbm, ⟨104, _⟩ => ⟨S1572864x1, .i32⟩
  | .hbm, ⟨105, _⟩ => ⟨S1x196608x64, .f32⟩
  | .hbm, ⟨106, _⟩ => ⟨S_, .f32⟩
  | .hbm, ⟨107, _⟩ => ⟨S1x196608x64, .f32⟩
  | .hbm, ⟨108, _⟩ => ⟨S1x196608x64, .f32⟩
  | .hbm, ⟨109, _⟩ => ⟨S1x196608x64, .f32⟩
  | .hbm, ⟨110, _⟩ => ⟨S1x196608x320, .f32⟩
  | .hbm, ⟨111, _⟩ => ⟨S196608x320, .f32⟩
  | .hbm, ⟨112, _⟩ => ⟨S196608x64, .f32⟩
  | .hbm, ⟨113, _⟩ => ⟨S1x196608x64, .f32⟩
  | .local _ .vmem, ⟨0, _⟩ => ⟨S4096x320, .f32⟩
  | .local _ .vmem, ⟨1, _⟩ => ⟨S4096x320, .f32⟩
  | .local _ .vmem, ⟨2, _⟩ => ⟨S320x64, .f32⟩
  | .local _ .vmem, ⟨3, _⟩ => ⟨S1, .f32⟩
  | .local _ .vmem, ⟨4, _⟩ => ⟨S4096x64, .f32⟩
  | .local _ .vmem, ⟨5, _⟩ => ⟨S4096x64, .f32⟩
  | _, _ => ⟨S1x196608x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_c_12 : Ref sig .tc := ⟨.hbm, 70, rfl⟩
abbrev main_v50 : Ref sig .tc := ⟨.hbm, 71, rfl⟩
abbrev main_v51 : Ref sig .tc := ⟨.hbm, 72, rfl⟩
abbrev main_c_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_c_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_c_18 : Ref sig .tc := ⟨.hbm, 97, rfl⟩
abbrev main_v71 : Ref sig .tc := ⟨.hbm, 98, rfl⟩
abbrev main_v72 : Ref sig .tc := ⟨.hbm, 99, rfl⟩
abbrev main_c_19 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_20 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1572864 : S_.BroadcastsInDim S1572864 (![] : Fin 0 → Fin S1572864.rank)
  bcast_S1572864_S1572864x1_0 : S1572864.BroadcastsInDim S1572864x1 (![0] : Fin 1 → Fin S1572864x1.rank)
  bcast_S1572864_S1x1572864x1_1 : S1572864.BroadcastsInDim S1x1572864x1 (![1] : Fin 1 → Fin S1x1572864x1.rank)
  bcast_S1x1572864x1_S1x1572864x64_0_1_2 : S1x1572864x1.BroadcastsInDim S1x1572864x64 (![0, 1, 2] : Fin 3 → Fin S1x1572864x64.rank)
  bcast_S_S1x196608x64 : S_.BroadcastsInDim S1x196608x64 (![] : Fin 0 → Fin S1x196608x64.rank)
  concatenates_S1x196608x64_S1x196608x64_S1x196608x64_S1x196608x64_S1x196608x64_S1x196608x320_d2 : Shape.Concatenates [S1x196608x64, S1x196608x64, S1x196608x64, S1x196608x64, S1x196608x64] S1x196608x320 2
  shapeCasts_S1x196608x320_S196608x320 : S1x196608x320.ShapeCasts S196608x320
  inb_S4096x320_S4096x320_0_0 : ∀ a, (![0, 0] : Fin 2 → Nat) a + S4096x320.size a ≤ S4096x320.size a
  h_S4096x320 : 0 < S4096x320.numel
  shapeCasts_S4096x320_S4096x320 : S4096x320.ShapeCasts S4096x320
  bitsLt_bf16_f32 : FTy.bits .bf16 < FTy.bits .f32
  inb_S320x64_S320x64_0_0 : ∀ a, (![0, 0] : Fin 2 → Nat) a + S320x64.size a ≤ S320x64.size a
  h_S320x64 : 0 < S320x64.numel
  inb_S1_S1_0 : ∀ a, (![0] : Fin 1 → Nat) a + S1.size a ≤ S1.size a
  h_S1 : 0 < S1.numel
  inpos_S1_p0 : ∀ a, (![0] : Fin 1 → Nat) a < S1.size a
  inb_S4096x64_S4096x64_0_0 : ∀ a, (![0, 0] : Fin 2 → Nat) a + S4096x64.size a ≤ S4096x64.size a
  h_S4096x64 : 0 < S4096x64.numel
  shapeCasts_S196608x64_S1x196608x64 : S196608x64.ShapeCasts S1x196608x64
  gather_S1x196608x64_S1572864x1_S1x1572864x64_02_1_n_n_1_1_1164_wf : GatherDims.WF S1x196608x64 S1572864x1 S1x1572864x64 [0, 2] [1] [] [1] [] 1 ![1, 1, 64]
  scatter_S1x196608x64_S1572864x1_S1x1572864x64_02_1_1_1_wf : ScatterDims.WF S1x196608x64 S1572864x1 S1x1572864x64 [0, 2] [1] [1] 1
  dot_S4096x320_S320x64_S4096x64_1_0_0_1_n_n_wf : DotDims.WF S4096x320 S320x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x320.size a ≤ S196608x320.size a
  hwx0_0 : ∀ i : grid0.Coords, EltTy.bits .f32 = 32 ∨ (Rect.block (s := S196608x320) S4096x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x64.size a ≤ S320x64.size a
  hwx0_1 : ∀ i : grid0.Coords, EltTy.bits .f32 = 32 ∨ (Rect.block (s := S320x64) S320x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S196608x64.size a
  hwx0_3 : ∀ i : grid0.Coords, EltTy.bits .f32 = 32 ∨ (Rect.block (s := S196608x64) S4096x64.size (cc0_transform_3 i) (hinb0_3 i)).WholeWords (EltTy.packing .f32)

variable [Facts₀]

def gather_S1x196608x64_S1572864x1_S1x1572864x64_02_1_n_n_1_1_1164 : GatherDims S1x196608x64 S1572864x1 S1x1572864x64 where
  offsetDims := [0, 2]
  collapsedSliceDims := [1]
  operandBatchingDims := []
  startIndicesBatchingDims := []
  startIndexMap := [1]
  indexVectorDim := 1
  sliceSizes := ![1, 1, 64]
  wf := gather_S1x196608x64_S1572864x1_S1x1572864x64_02_1_n_n_1_1_1164_wf
def scatter_S1x196608x64_S1572864x1_S1x1572864x64_02_1_1_1 : ScatterDims S1x196608x64 S1572864x1 S1x1572864x64 where
  updateWindowDims := [0, 2]
  insertedWindowDims := [1]
  scatterDimsToOperandDims := [1]
  indexVectorDim := 1
  wf := scatter_S1x196608x64_S1572864x1_S1x1572864x64_02_1_1_1_wf
def dot_S4096x320_S320x64_S4096x64_1_0_0_1_n_n : DotDims S4096x320 S320x64 S4096x64 where
  lhsContracting := [1]
  rhsContracting := [0]
  lhsNonContracting := [0]
  rhsNonContracting := [1]
  lhsBatch := []
  rhsBatch := []
  wf := dot_S4096x320_S320x64_S4096x64_1_0_0_1_n_n_wf

abbrev win0_0 : Pipeline.Window sig grid0 :=
  Pipeline.Window.ofSpec (Memref.whole main_v82) S4096x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S320x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v83) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x196608x64 : Shape := ⟨3, ![1, 196608, 64]⟩
abbrev S1572864 : Shape := ⟨1, ![1572864]⟩
abbrev S320x64 : Shape := ⟨2, ![320, 64]⟩
abbrev S1 : Shape := ⟨1, ![1]⟩
abbrev S_ : Shape := ⟨0, ![]⟩
abbrev S1572864x1 : Shape := ⟨2, ![1572864, 1]⟩
abbrev S1x1572864x64 : Shape := ⟨3, ![1, 1572864, 64]⟩
abbrev S1x1572864x1 : Shape := ⟨3, ![1, 1572864, 1]⟩
abbrev S1x196608x320 : Shape := ⟨3, ![1, 196608, 320]⟩
abbrev S1x1x1 : Shape := ⟨3, ![1, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S1x196608x64, .f32⟩
  | .hbm, ⟨1, _⟩ => ⟨S1572864, .f32⟩
  | .hbm, ⟨2, _⟩ => ⟨S320x64, .f32⟩
  | .hbm, ⟨3, _⟩ => ⟨S1, .f32⟩
  | .hbm, ⟨4, _⟩ => ⟨S1572864, .i32⟩
  | .hbm, ⟨5, _⟩ => ⟨S1572864, .i32⟩
  | .hbm, ⟨6, _⟩ => ⟨S_, .i32⟩
  | .hbm, ⟨7, _⟩ => ⟨S1572864, .i32⟩
  | .hbm, ⟨8, _⟩ => ⟨S1572864, .i1⟩
  | .hbm, ⟨9, _⟩ => ⟨S_, .i32⟩
  | .hbm, ⟨10, _⟩ => ⟨S1572864, .i32⟩
  | .hbm, ⟨11, _⟩ => ⟨S1572864, .i32⟩
  | .hbm, ⟨12, _⟩ => ⟨S1572864, .i32⟩
  | .hbm, ⟨13, _⟩ => ⟨S1572864x1, .i32⟩
  | .hbm, ⟨14, _⟩ => ⟨S1x1572864x64, .f32⟩
  | .hbm, ⟨15, _⟩ => ⟨S1x1572864x1, .f32⟩
  | .hbm, ⟨16, _⟩ => ⟨S1x1572864x64, .f32⟩
  | .hbm, ⟨17, _⟩ => ⟨S1x1572864x64, .f32⟩
  | .hbm, ⟨18, _⟩ => ⟨S_, .f32⟩
  | .hbm, ⟨19, _⟩ => ⟨S1x196608x64, .f32⟩
  | .hbm, ⟨20, _⟩ => ⟨S_, .i32⟩
  | .hbm, ⟨21, _⟩ => ⟨S1572864, .i32⟩
  | .hbm, ⟨22, _⟩ => ⟨S1572864, .i1⟩
  | .hbm, ⟨23, _⟩ => ⟨S_, .i32⟩
  | .hbm, ⟨24, _⟩ => ⟨S1572864, .i32⟩
  | .hbm, ⟨25, _⟩ => ⟨S1572864, .i32⟩
  | .hbm, ⟨26, _⟩ => ⟨S1572864, .i32⟩
  | .hbm, ⟨27, _⟩ => ⟨S1572864x1, .i32⟩
  | .hbm, ⟨28, _⟩ => ⟨S1x196608x64, .f32⟩
  | .hbm, ⟨29, _⟩ => ⟨S_, .i32⟩
  | .hbm, ⟨30, _⟩ => ⟨S1572864, .i32⟩
  | .hbm, ⟨31, _⟩ => ⟨S1572864, .i1⟩
  | .hbm, ⟨32, _⟩ => ⟨S_, .i32⟩
  | .hbm, ⟨33, _⟩ => ⟨S1572864, .i32⟩
  | .hbm, ⟨34, _⟩ => ⟨S1572864, .i32⟩
  | .hbm, ⟨35, _⟩ => ⟨S1572864, .i32⟩
  | .hbm, ⟨36, _⟩ => ⟨S1572864x1, .i32⟩
  | .hbm, ⟨37, _⟩ => ⟨S1x1572864x64, .f32⟩
  | .hbm, ⟨38, _⟩ => ⟨S1x1572864x1, .f32⟩
  | .hbm, ⟨39, _⟩ => ⟨S1x1572864x64, .f32⟩
  | .hbm, ⟨40, _⟩ => ⟨S1x1572864x64, .f32⟩
  | .hbm, ⟨41, _⟩ => ⟨S_, .f32⟩
  | .hbm, ⟨42, _⟩ => ⟨S1x196608x64, .f32⟩
  | .hbm, ⟨43, _⟩ => ⟨S_, .i32⟩
  | .hbm, ⟨44, _⟩ => ⟨S1572864, .i32⟩
  | .hbm, ⟨45, _⟩ => ⟨S1572864, .i1⟩
  | .hbm, ⟨46, _⟩ => ⟨S_, .i32⟩
  | .hbm, ⟨47, _⟩ => ⟨S1572864, .i32⟩
  | .hbm, ⟨48, _⟩ => ⟨S1572864, .i32⟩
  | .hbm, ⟨49, _⟩ => ⟨S1572864, .i32⟩
  | .hbm, ⟨50, _⟩ => ⟨S1572864x1, .i32⟩
  | .hbm, ⟨51, _⟩ => ⟨S1x196608x64, .f32⟩
  | .hbm, ⟨52, _⟩ => ⟨S_, .f32⟩
  | .hbm, ⟨53, _⟩ => ⟨S1x196608x64, .f32⟩
  | .hbm, ⟨54, _⟩ => ⟨S1x196608x64, .f32⟩
  | .hbm, ⟨55, _⟩ => ⟨S1x196608x64, .f32⟩
  | .hbm, ⟨56, _⟩ => ⟨S_, .i32⟩
  | .hbm, ⟨57, _⟩ => ⟨S1572864, .i32⟩
  | .hbm, ⟨58, _⟩ => ⟨S1572864, .i1⟩
  | .hbm, ⟨59, _⟩ => ⟨S_, .i32⟩
  | .hbm, ⟨60, _⟩ => ⟨S1572864, .i32⟩
  | .hbm, ⟨61, _⟩ => ⟨S1572864, .i32⟩
  | .hbm, ⟨62, _⟩ => ⟨S1572864, .i32⟩
  | .hbm, ⟨63, _⟩ => ⟨S1572864x1, .i32⟩
  | .hbm, ⟨64, _⟩ => ⟨S1x1572864x64, .f32⟩
  | .hbm, ⟨65, _⟩ => ⟨S1x1572864x1, .f32⟩
  | .hbm, ⟨66, _⟩ => ⟨S1x1572864x64, .f32⟩
  | .hbm, ⟨67, _⟩ => ⟨S1x1572864x64, .f32⟩
  | .hbm, ⟨68, _⟩ => ⟨S_, .f32⟩
  | .hbm, ⟨69, _⟩ => ⟨S1x196608x64, .f32⟩
  | .hbm, ⟨70, _⟩ => ⟨S_, .i32⟩
  | .hbm, ⟨71, _⟩ => ⟨S1572864, .i32⟩
  | .hbm, ⟨72, _⟩ => ⟨S1572864, .i1⟩
  | .hbm, ⟨73, _⟩ => ⟨S_, .i32⟩
  | .hbm, ⟨74, _⟩ => ⟨S1572864, .i32⟩
  | .hbm, ⟨75, _⟩ => ⟨S1572864, .i32⟩
  | .hbm, ⟨76, _⟩ => ⟨S1572864, .i32⟩
  | .hbm, ⟨77, _⟩ => ⟨S1572864x1, .i32⟩
  | .hbm, ⟨78, _⟩ => ⟨S1x196608x64, .f32⟩
  | .hbm, ⟨79, _⟩ => ⟨S_, .f32⟩
  | .hbm, ⟨80, _⟩ => ⟨S1x196608x64, .f32⟩
  | .hbm, ⟨81, _⟩ => ⟨S1x196608x64, .f32⟩
  | .hbm, ⟨82, _⟩ => ⟨S1x196608x64, .f32⟩
  | .hbm, ⟨83, _⟩ => ⟨S_, .i32⟩
  | .hbm, ⟨84, _⟩ => ⟨S1572864, .i32⟩
  | .hbm, ⟨85, _⟩ => ⟨S1572864, .i1⟩
  | .hbm, ⟨86, _⟩ => ⟨S_, .i32⟩
  | .hbm, ⟨87, _⟩ => ⟨S1572864, .i32⟩
  | .hbm, ⟨88, _⟩ => ⟨S1572864, .i32⟩
  | .hbm, ⟨89, _⟩ => ⟨S1572864, .i32⟩
  | .hbm, ⟨90, _⟩ => ⟨S1572864x1, .i32⟩
  | .hbm, ⟨91, _⟩ => ⟨S1x1572864x64, .f32⟩
  | .hbm, ⟨92, _⟩ => ⟨S1x1572864x1, .f32⟩
  | .hbm, ⟨93, _⟩ => ⟨S1x1572864x64, .f32⟩
  | .hbm, ⟨94, _⟩ => ⟨S1x1572864x64, .f32⟩
  | .hbm, ⟨95, _⟩ => ⟨S_, .f32⟩
  | .hbm, ⟨96, _⟩ => ⟨S1x196608x64, .f32⟩
  | .hbm, ⟨97, _⟩ => ⟨S_, .i32⟩
  | .hbm, ⟨98, _⟩ => ⟨S1572864, .i32⟩
  | .hbm, ⟨99, _⟩ => ⟨S1572864, .i1⟩
  | .hbm, ⟨100, _⟩ => ⟨S_, .i32⟩
  | .hbm, ⟨101, _⟩ => ⟨S1572864, .i32⟩
  | .hbm, ⟨102, _⟩ => ⟨S1572864, .i32⟩
  | .hbm, ⟨103, _⟩ => ⟨S1572864, .i32⟩
  | .hbm, ⟨104, _⟩ => ⟨S1572864x1, .i32⟩
  | .hbm, ⟨105, _⟩ => ⟨S1x196608x64, .f32⟩
  | .hbm, ⟨106, _⟩ => ⟨S_, .f32⟩
  | .hbm, ⟨107, _⟩ => ⟨S1x196608x64, .f32⟩
  | .hbm, ⟨108, _⟩ => ⟨S1x196608x64, .f32⟩
  | .hbm, ⟨109, _⟩ => ⟨S1x196608x64, .f32⟩
  | .hbm, ⟨110, _⟩ => ⟨S1x196608x320, .f32⟩
  | .hbm, ⟨111, _⟩ => ⟨S1x196608x64, .f32⟩
  | .hbm, ⟨112, _⟩ => ⟨S_, .f32⟩
  | .hbm, ⟨113, _⟩ => ⟨S1x196608x64, .f32⟩
  | .hbm, ⟨114, _⟩ => ⟨S1x196608x64, .i1⟩
  | .hbm, ⟨115, _⟩ => ⟨S1x1x1, .f32⟩
  | .hbm, ⟨116, _⟩ => ⟨S1x196608x64, .f32⟩
  | .hbm, ⟨117, _⟩ => ⟨S1x196608x64, .f32⟩
  | .hbm, ⟨118, _⟩ => ⟨S1x196608x64, .f32⟩
  | _, _ => ⟨S1x196608x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_c_12 : Ref sig .tc := ⟨.hbm, 70, rfl⟩
abbrev main_v50 : Ref sig .tc := ⟨.hbm, 71, rfl⟩
abbrev main_v51 : Ref sig .tc := ⟨.hbm, 72, rfl⟩
abbrev main_c_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_c_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_c_18 : Ref sig .tc := ⟨.hbm, 97, rfl⟩
abbrev main_v71 : Ref sig .tc := ⟨.hbm, 98, rfl⟩
abbrev main_v72 : Ref sig .tc := ⟨.hbm, 99, rfl⟩
abbrev main_c_19 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_20 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_21 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  bcast_S_S1572864 : S_.BroadcastsInDim S1572864 (![] : Fin 0 → Fin S1572864.rank)
  bcast_S1572864_S1572864x1_0 : S1572864.BroadcastsInDim S1572864x1 (![0] : Fin 1 → Fin S1572864x1.rank)
  bcast_S1572864_S1x1572864x1_1 : S1572864.BroadcastsInDim S1x1572864x1 (![1] : Fin 1 → Fin S1x1572864x1.rank)
  bcast_S1x1572864x1_S1x1572864x64_0_1_2 : S1x1572864x1.BroadcastsInDim S1x1572864x64 (![0, 1, 2] : Fin 3 → Fin S1x1572864x64.rank)
  bcast_S_S1x196608x64 : S_.BroadcastsInDim S1x196608x64 (![] : Fin 0 → Fin S1x196608x64.rank)
  concatenates_S1x196608x64_S1x196608x64_S1x196608x64_S1x196608x64_S1x196608x64_S1x196608x320_d2 : Shape.Concatenates [S1x196608x64, S1x196608x64, S1x196608x64, S1x196608x64, S1x196608x64] S1x196608x320 2
  bcast_S1_S1x1x1_2 : S1.BroadcastsInDim S1x1x1 (![2] : Fin 1 → Fin S1x1x1.rank)
  bcast_S1x1x1_S1x196608x64_0_1_2 : S1x1x1.BroadcastsInDim S1x196608x64 (![0, 1, 2] : Fin 3 → Fin S1x196608x64.rank)
  gather_S1x196608x64_S1572864x1_S1x1572864x64_02_1_n_n_1_1_1164_wf : GatherDims.WF S1x196608x64 S1572864x1 S1x1572864x64 [0, 2] [1] [] [1] [] 1 ![1, 1, 64]
  scatter_S1x196608x64_S1572864x1_S1x1572864x64_02_1_1_1_wf : ScatterDims.WF S1x196608x64 S1572864x1 S1x1572864x64 [0, 2] [1] [1] 1
  dot_S1x196608x320_S320x64_S1x196608x64_2_0_01_1_n_n_wf : DotDims.WF S1x196608x320 S320x64 S1x196608x64 [2] [0] [0, 1] [1] [] []

variable [Facts₀]

def gather_S1x196608x64_S1572864x1_S1x1572864x64_02_1_n_n_1_1_1164 : GatherDims S1x196608x64 S1572864x1 S1x1572864x64 where
  offsetDims := [0, 2]
  collapsedSliceDims := [1]
  operandBatchingDims := []
  startIndicesBatchingDims := []
  startIndexMap := [1]
  indexVectorDim := 1
  sliceSizes := ![1, 1, 64]
  wf := gather_S1x196608x64_S1572864x1_S1x1572864x64_02_1_n_n_1_1_1164_wf
def scatter_S1x196608x64_S1572864x1_S1x1572864x64_02_1_1_1 : ScatterDims S1x196608x64 S1572864x1 S1x1572864x64 where
  updateWindowDims := [0, 2]
  insertedWindowDims := [1]
  scatterDimsToOperandDims := [1]
  indexVectorDim := 1
  wf := scatter_S1x196608x64_S1572864x1_S1x1572864x64_02_1_1_1_wf
def dot_S1x196608x320_S320x64_S1x196608x64_2_0_01_1_n_n : DotDims S1x196608x320 S320x64 S1x196608x64 where
  lhsContracting := [2]
  rhsContracting := [0]
  lhsNonContracting := [0, 1]
  rhsNonContracting := [1]
  lhsBatch := []
  rhsBatch := []
  wf := dot_S1x196608x320_S320x64_S1x196608x64_2_0_01_1_n_n_wf

class Facts : Prop extends Facts₀ where

variable [Facts]
-- ==== Proof.KernelFrame.lean ====
/-
  The frame of `Kernel`'s @main, at any float instance `F`.

  @main is 106 host lines (the sparse recurrence, the five terms joined along the feature axis and flattened to a
  matrix of 196608 rows and 320 columns), ONE region over a grid of 48 points, and one host line (the result
  reshaped). At each point the region's body reads a block of 4096 rows of the matrix, the whole 320 x 64 weight and
  the one-word slope, and overwrites the whole 4096 x 64 output block. So: every argument array ends as it began
  (no host line writes an argument; the region's only written array is its own result), and after the run the
  result array holds, block by block, what the body computed from the blocks it read.
-/
import proofs.«150697_j75883482185958_1_alg».proof.Proof.Gen.Kernel.Launch
import proofs.«150697_j75883482185958_1_alg».proof.Proof.Gen.Kernel.Skeleton
import proofs.«150697_j75883482185958_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents run through the host lines
    before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host line allocates anything. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the pipeline
    fetched it there or left it from an earlier point (its index then has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, whether the pipeline
    fetched it there or left it from an earlier point (its index then has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, whether the pipeline
    fetched it there or left it from an earlier point (its index then has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose end state has every array of the region at what the proof data computes and every other
    unscoped buffer as the line after the region leaves it: the six argument arrays end as launched. The weight and
    the slope are input windows (never written back); the other four no window stages and no host line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's accesses: each is a whole buffer -/

abbrev rFeat : Rect S4096x320 := Rect.unit (s := S4096x320) ![0, 0] S4096x320.size inb_S4096x320_S4096x320_0_0
abbrev rW : Rect S320x64 := Rect.unit (s := S320x64) ![0, 0] S320x64.size inb_S320x64_S320x64_0_0
abbrev rA : Rect S1 := Rect.unit (s := S1) ![0] S1.size inb_S1_S1_0
abbrev rOut : Rect S4096x64 := Rect.unit (s := S4096x64) ![0, 0] S4096x64.size inb_S4096x64_S4096x64_0_0

/-! ## What the body leaves in the output block -/

/-- The output window's buffer after the body: its one store, of the body's arithmetic applied to the three
    blocks read. -/
def out0_3 (x0 : Vec F S4096x320 .f32) (x1 : Vec F S320x64 .f32) (x2 : Vec F S1 .f32) : Vec F S4096x64 .f32 :=
  View.canon [⟨rOut, k0_pay1 (View.ld x0 rFeat) (View.ld x1 rW) (View.ld x2 rA)⟩]

/-- The one store covers the whole buffer. -/
theorem cover0_3 (p0 : Vec F S4096x64 .f32) (y : S4096x64.Idx) :
    ∃ pc ∈ ([⟨rOut, p0⟩] : List (View.Piece (Elt F) S4096x64 .f32)), y ∈ pc.1.set :=
  View.cover_of_tiled [⟨rOut, p0⟩] S4096x64.size (by rfl) y

/-! ## The body's triple -/

set_option maxHeartbeats 1000000 in
/-- The body, run on whole staging buffers holding `x0`, `x1`, `x2` and an output buffer holding anything, ends with
    the inputs as they were and the output at `out0_3 x0 x1 x2` (its load of the output buffer is of a value it never
    uses). -/
theorem sound_kernel (c : Dev nD) (E : Set ℕ) (i : grid0.Coords) (arg1 : Memref sig .tc .vmem S4096x320 .f32) (harg1 : arg1.IsWhole) (arg2 : Memref sig .tc .vmem S320x64 .f32) (harg2 : arg2.IsWhole) (arg3 : Memref sig .tc .vmem S1 .f32) (harg3 : arg3.IsWhole) (arg4 : Memref sig .tc .vmem S4096x64 .f32) (harg4 : arg4.IsWhole)
    (x0 : Vec F S4096x320 .f32) (x1 : Vec F S320x64 .f32) (x2 : Vec F S1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_prelu_kernel i arg1 harg1 arg2 harg2 arg3 harg3 arg4 harg4) K := by
  simp only [cc0__combine_prelu_kernel_eq_skeleton]; unfold cc0__combine_prelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- On core `c`: the arrays as the region finds them; after the body at point `t` each input's buffer still at its
    block and the output's at `out0_3` of the three blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the region holds
    what the proof data computes (the result array: the blocks the body left, written back point by point) and every
    other unscoped buffer what the line after the region leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends, faults nowhere, and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frame

end
-- ==== Proof.KernelIdealFrame.lean ====
/-
  The frame of `KernelIdeal`'s @main, at any float instance `F`.

  @main is 106 host lines (the sparse recurrence, the five terms joined along the feature axis and flattened to a
  matrix of 196608 rows and 320 columns), ONE region over a grid of 48 points, and one host line (the result
  reshaped). At each point the region's body reads a block of 4096 rows of the matrix, the whole 320 x 64 weight and
  the one-word slope, and overwrites the whole 4096 x 64 output block. So: every argument array ends as it began
  (no host line writes an argument; the region's only written array is its own result), and after the run the
  result array holds, block by block, what the body computed from the blocks it read.
-/
import proofs.«150697_j75883482185958_1_alg».proof.Proof.Gen.KernelIdeal.Launch
import proofs.«150697_j75883482185958_1_alg».proof.Proof.Gen.KernelIdeal.Skeleton
import proofs.«150697_j75883482185958_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents run through the host lines
    before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host line allocates anything. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only unscoped TensorCore buffers, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the pipeline
    fetched it there or left it from an earlier point (its index then has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, whether the pipeline
    fetched it there or left it from an earlier point (its index then has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, whether the pipeline
    fetched it there or left it from an earlier point (its index then has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose end state has every array of the region at what the proof data computes and every other
    unscoped buffer as the line after the region leaves it: the six argument arrays end as launched. The weight and
    the slope are input windows (never written back); the other four no window stages and no host line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's accesses: each is a whole buffer -/

abbrev rFeat : Rect S4096x320 := Rect.unit (s := S4096x320) ![0, 0] S4096x320.size inb_S4096x320_S4096x320_0_0
abbrev rW : Rect S320x64 := Rect.unit (s := S320x64) ![0, 0] S320x64.size inb_S320x64_S320x64_0_0
abbrev rA : Rect S1 := Rect.unit (s := S1) ![0] S1.size inb_S1_S1_0
abbrev rOut : Rect S4096x64 := Rect.unit (s := S4096x64) ![0, 0] S4096x64.size inb_S4096x64_S4096x64_0_0

/-! ## What the body leaves in the output block -/

/-- The output window's buffer after the body: its one store, of the body's arithmetic applied to the three
    blocks read. -/
def out0_3 (x0 : Vec F S4096x320 .f32) (x1 : Vec F S320x64 .f32) (x2 : Vec F S1 .f32) : Vec F S4096x64 .f32 :=
  View.canon [⟨rOut, k0_pay1 (View.ld x0 rFeat) (View.ld x1 rW) (View.ld x2 rA)⟩]

/-- The one store covers the whole buffer. -/
theorem cover0_3 (p0 : Vec F S4096x64 .f32) (y : S4096x64.Idx) :
    ∃ pc ∈ ([⟨rOut, p0⟩] : List (View.Piece (Elt F) S4096x64 .f32)), y ∈ pc.1.set :=
  View.cover_of_tiled [⟨rOut, p0⟩] S4096x64.size (by rfl) y

/-! ## The body's triple -/

set_option maxHeartbeats 1000000 in
/-- The body, run on whole staging buffers holding `x0`, `x1`, `x2` and an output buffer holding anything, ends with
    the inputs as they were and the output at `out0_3 x0 x1 x2` (its load of the output buffer is of a value it never
    uses). -/
theorem sound_kernel (c : Dev nD) (E : Set ℕ) (i : grid0.Coords) (arg1 : Memref sig .tc .vmem S4096x320 .f32) (harg1 : arg1.IsWhole) (arg2 : Memref sig .tc .vmem S320x64 .f32) (harg2 : arg2.IsWhole) (arg3 : Memref sig .tc .vmem S1 .f32) (harg3 : arg3.IsWhole) (arg4 : Memref sig .tc .vmem S4096x64 .f32) (harg4 : arg4.IsWhole)
    (x0 : Vec F S4096x320 .f32) (x1 : Vec F S320x64 .f32) (x2 : Vec F S1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_prelu_kernel i arg1 harg1 arg2 harg2 arg3 harg3 arg4 harg4) K := by
  simp only [cc0__combine_prelu_kernel_eq_skeleton]; unfold cc0__combine_prelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- On core `c`: the arrays as the region finds them; after the body at point `t` each input's buffer still at its
    block and the output's at `out0_3` of the three blocks; nothing else touched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation at a grid point -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the region holds
    what the proof data computes (the result array: the blocks the body left, written back point by point) and every
    other unscoped buffer what the line after the region leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends, faults nowhere, and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frame

end
-- ==== Proof.Spec.lean ====
/-
  The specification: the dense combine followed by the leaky rectifier, entry by entry, on extended reals.

  For a matrix `X` of 196608 rows and 320 columns, a weight `W` of 320 rows and 64 columns and a one-entry slope `a`,
  entry `(r, f)` of the result is `prelu (a 0) (∑ k, X (r, k) · W (k, f))`, where `prelu s z` is `z` when `z` is
  greater than zero and `s · z` otherwise. Both programs compute this function of the same matrix `X` (the five
  terms of the recurrence side by side): one in row blocks of 4096 with the product taken block by block, the other as
  one contraction of a rank-3 array. A sum of extended reals does not depend on how its terms are grouped, so no
  finiteness of the inputs is used.
-/
import Idealize.ShloMosaic.PureOps.Ideal
import Idealize.ShloMosaic.Lib.ValueIdx

noncomputable section

namespace Cert.Spec

open Idealize.ShloMosaic Idealize.ShloMosaic.ValueIdx

/-- The leaky rectifier with slope `s`: `z` where `z` is greater than zero (the comparison and the choice are the
    ones both programs apply, against the zero word), `s · z` elsewhere. -/
def prelu (s z : EReal) : EReal :=
  Scalar.select (FloatOps.cmpf (F := Ideal) (φ := .f32) .ogt z (Ideal.ofBits .f32 0x00000000#32)) z (s * z)

/-- Entry `(r, f)` of the combine: row `r` of `X` against column `f` of `W`, then the rectifier with slope `a 0`. -/
def combine (X : (⟨2, ![196608, 320]⟩ : Shape).Idx → EReal) (W : (⟨2, ![320, 64]⟩ : Shape).Idx → EReal)
    (a : (⟨1, ![1]⟩ : Shape).Idx → EReal) : (⟨2, ![196608, 64]⟩ : Shape).Idx → EReal :=
  fun i => prelu (a (ix1 (0 : Fin 1))) (∑ k : Fin 320, X (ix2 (i 0) k) * W (ix2 k (i 1)))

theorem combine_apply (X : (⟨2, ![196608, 320]⟩ : Shape).Idx → EReal) (W : (⟨2, ![320, 64]⟩ : Shape).Idx → EReal)
    (a : (⟨1, ![1]⟩ : Shape).Idx → EReal) (r : Fin 196608) (f : Fin 64) :
    combine X W a (ix2 r f) = prelu (a (ix1 (0 : Fin 1))) (∑ k : Fin 320, X (ix2 r k) * W (ix2 k f)) := rfl

end Cert.Spec

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.KernelPayload.lean ====
/-
  The body's arithmetic at one entry of the output block, on extended reals.

  The body takes a block `x0` of 4096 rows of the feature matrix, the whole weight `x1` and the slope `x2`; it
  narrows both matrix operands to a shorter float format (the identity on extended reals), multiplies them into a
  zero accumulator, and applies the leaky rectifier. Entry `(p, q)` of what it stores is therefore
  `prelu (x2 0) (∑ k, x0 (p, k) · x1 (k, q))`: the product's contraction runs over one axis of extent 320, whose
  index set is in bijection with `Fin 320`, and the operand indices at output `(p, q)` and contraction position `k` are
  `(p, k)` and `(k, q)`.
-/
import proofs.«150697_j75883482185958_1_alg».proof.Proof.Gen.KernelIdeal.Skeleton
import proofs.«150697_j75883482185958_1_alg».proof.Proof.Spec
import proofs.«150697_j75883482185958_1_alg».proof.Proof.LibDotSum
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen

/-- The product's operand indices: the left one is `(row of the output, contraction position)`, -/
theorem lhs0 (j : S4096x64.Idx) (k : dot_S4096x320_S320x64_S4096x64_1_0_0_1_n_n.contr.Idx) :
    (dot_S4096x320_S320x64_S4096x64_1_0_0_1_n_n.lhsIdx j k 0).val = (j 0).val := by
  unfold DotDims.lhsIdx
  rw [dif_neg (show ¬(0 : Fin S4096x320.rank) ∈ dot_S4096x320_S320x64_S4096x64_1_0_0_1_n_n.lhsBatch by decide),
    dif_pos (show (0 : Fin S4096x320.rank) ∈ dot_S4096x320_S320x64_S4096x64_1_0_0_1_n_n.lhsNonContracting by decide)]
  rfl
theorem lhs1 (j : S4096x64.Idx) (k : dot_S4096x320_S320x64_S4096x64_1_0_0_1_n_n.contr.Idx) :
    (dot_S4096x320_S320x64_S4096x64_1_0_0_1_n_n.lhsIdx j k 1).val = (k ⟨0, by decide⟩).val :=
  dot_S4096x320_S320x64_S4096x64_1_0_0_1_n_n.lhsIdx_val_of_single rfl j k
/-- the right one `(contraction position, column of the output)`. -/
theorem rhs0 (j : S4096x64.Idx) (k : dot_S4096x320_S320x64_S4096x64_1_0_0_1_n_n.contr.Idx) :
    (dot_S4096x320_S320x64_S4096x64_1_0_0_1_n_n.rhsIdx j k 0).val = (k ⟨0, by decide⟩).val :=
  dot_S4096x320_S320x64_S4096x64_1_0_0_1_n_n.rhsIdx_val_of_single rfl j k
theorem rhs1 (j : S4096x64.Idx) (k : dot_S4096x320_S320x64_S4096x64_1_0_0_1_n_n.contr.Idx) :
    (dot_S4096x320_S320x64_S4096x64_1_0_0_1_n_n.rhsIdx j k 1).val = (j 1).val := by
  unfold DotDims.rhsIdx
  rw [dif_neg (show ¬(1 : Fin S320x64.rank) ∈ dot_S4096x320_S320x64_S4096x64_1_0_0_1_n_n.rhsBatch by decide),
    dif_pos (show (1 : Fin S320x64.rank) ∈ dot_S4096x320_S320x64_S4096x64_1_0_0_1_n_n.rhsNonContracting by decide)]
  rfl

/-- The block product into the zero accumulator, at `(p, q)`: the sum over `k` of `a (p, k) · b (k, q)`. -/
theorem mm_apply (a : FVec Ideal S4096x320 .bf16) (b : FVec Ideal S320x64 .bf16) (p : Fin 4096) (q : Fin 64) :
    matmul dot_S4096x320_S320x64_S4096x64_1_0_0_1_n_n none a b (constant S4096x64 .f32 0x00000000#32) (ix2 p q)
      = ∑ k : Fin 320, a (ix2 p k) * b (ix2 k q) :=
  (Ideal.matmul_constant_zero_apply dot_S4096x320_S320x64_S4096x64_1_0_0_1_n_n none a b (ix2 p q)).trans
    (Cert.LibDotSum.sum_dot (M := 4096) (K := 320) (N := 64) dot_S4096x320_S320x64_S4096x64_1_0_0_1_n_n rfl rfl
      lhs0 lhs1 rhs0 rhs1 a b p q)

/-- Narrowing the block (after a cast to its own shape) changes no entry. -/
theorem narrowed_feat (x0 : Vec Ideal S4096x320 .f32) :
    (truncf .bf16 (shapeCast S4096x320 x0 shapeCasts_S4096x320_S4096x320) bitsLt_bf16_f32 : FVec Ideal S4096x320 .bf16) = x0 := by
  funext i
  exact congrFun (shapeCast_self x0 shapeCasts_S4096x320_S4096x320) i

/-- Entry `(p, q)` of the stored block. -/
theorem pay_apply (x0 : Vec Ideal S4096x320 .f32) (x1 : Vec Ideal S320x64 .f32) (x2 : Vec Ideal S1 .f32)
    (p : Fin 4096) (q : Fin 64) :
    k0_pay1 (F := Ideal) x0 x1 x2 (ix2 p q)
      = Spec.prelu (x2 (ix1 (0 : Fin 1))) (∑ k : Fin 320, x0 (ix2 p k) * x1 (ix2 k q)) := by
  have h := mm_apply (truncf .bf16 (shapeCast S4096x320 x0 shapeCasts_S4096x320_S4096x320) bitsLt_bf16_f32)
    (truncf .bf16 x1 bitsLt_bf16_f32) p q
  have h' := h.trans (Finset.sum_congr rfl fun (k : Fin 320) _ =>
    (congrArg (· * x1 (ix2 k q)) (congrFun (narrowed_feat x0) (ix2 p k)) : _ = x0 (ix2 p k) * x1 (ix2 k q)))
  have hα : extractAt ![0] x2 inpos_S1_p0 = x2 (ix1 (0 : Fin 1)) :=
    congrArg x2 (funext fun a => Fin.ext (by match a with | ⟨0, _⟩ => rfl))
  unfold Spec.prelu
  rw [← h', ← hα]
  rfl

/-- The same at any index of the block, through its two coordinates. -/
theorem pay_apply_idx (x0 : Vec Ideal S4096x320 .f32) (x1 : Vec Ideal S320x64 .f32) (x2 : Vec Ideal S1 .f32)
    (j : S4096x64.Idx) :
    k0_pay1 (F := Ideal) x0 x1 x2 j
      = Spec.prelu (x2 (ix1 (0 : Fin 1))) (∑ k : Fin 320, x0 (ix2 (j 0) k) * x1 (ix2 k (j 1))) :=
  (congrArg (k0_pay1 (F := Ideal) x0 x1 x2) (eq_ix2 j)).trans (pay_apply x0 x1 x2 (j 0) (j 1))

end Cert.KernelIdeal.Payload

end
-- ==== Proof.KernelResult.lean ====
/-
  The result array after the region, as one function of the matrix the region reads.

  Grid point `t` of 48 reads rows `4096·t … 4096·t + 4095` of the feature matrix (all 320 columns), the whole weight
  and the slope, and writes back rows `4096·t … 4096·t + 4095` of the result (all 64 columns). Entry `(p, q)` of the
  written block is `prelu (slope) (∑ k, block (p, k) · weight (k, q))`, and `block (p, k)` is entry `(4096·t + p, k)` of
  the matrix: so what point `t` writes back is block `t` of `Spec.combine` of the whole arrays. The 48 blocks tile the
  196608 rows (row `r` lies in block `r / 4096`), so after the run the result array IS `Spec.combine` of the arrays the
  region found; the one host line after the region only adds a leading axis of extent one.
-/
import proofs.«150697_j75883482185958_1_alg».proof.Proof.KernelIdealFrame
import proofs.«150697_j75883482185958_1_alg».proof.Proof.KernelPayload
import Idealize.ShloMosaic.Lib.Pipeline.Value
import Idealize.ShloMosaic.Lib.ValueLayout
import Idealize.ShloMosaic.Lib.StableHlo.Run

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The block indices at point `t`: the matrix and the result move down one block of rows per point, the weight
    and the slope stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of a stored block against one entry of the specification: if the slope read is the array's slope, row
    `j 0` of the block read is row `i 0` of the matrix and column `j 1` of the weight read is column `i 1` of the weight,
    then entry `j` of what the body stores is entry `i` of `Spec.combine`. -/
theorem block_entry (x0 : Vec Ideal S4096x320 .f32) (x1 : Vec Ideal S320x64 .f32) (x2 : Vec Ideal S1 .f32)
    (X : S196608x320.Idx → EReal) (W : S320x64.Idx → EReal) (a : S1.Idx → EReal)
    (j : S4096x64.Idx) (i : S196608x64.Idx)
    (ha : x2 (ix1 (0 : Fin 1)) = a (ix1 (0 : Fin 1)))
    (hx : ∀ k : Fin 320, x0 (ix2 (j 0) k) = X (ix2 (i 0) k))
    (hw : ∀ k : Fin 320, x1 (ix2 k (j 1)) = W (ix2 k (i 1))) :
    k0_pay1 (F := Ideal) x0 x1 x2 j = Spec.combine X W a i :=
  (Payload.pay_apply_idx x0 x1 x2 j).trans
    (congrArg₂ Spec.prelu ha (Finset.sum_congr rfl fun k _ => congrArg₂ (· * ·) (hx k) (hw k)))

set_option maxHeartbeats 1000000 in
/-- What point `t` writes back is block `t` of `Spec.combine` of the arrays the region finds. -/
theorem flushed_eq (c : Dev nD) (t : Fin cfg0.N) :
    (dats m 0 c).flushed 3 t = ((cfg0.win 3).blk t).view.read (Elt Ideal)
      (Spec.combine (V m c main_v82) (V m c main_arg2) (V m c main_arg3)) := by
  show (cfg0.win 3).cut (grid0.coords t) ((dats m 0 c).after 3 t) = _
  rw [after0_3]
  unfold out0_3
  rw [View.canon_unit_zero hz2]
  simp only [View.ld_unit_zero (S := S4096x320) hz2, View.ld_unit_zero (S := S320x64) hz2, View.ld_unit_zero (S := S1) hz1]
  obtain ⟨e00, e01, e10, e11, e20, e30, e31⟩ := idx_facts t
  funext j
  show k0_pay1 (F := Ideal) (iblk m c 0 t) (iblk m c 1 t) (iblk m c 2 t) ((cfg0.win 3).xinj (grid0.coords t) j) = _
  rw [View.read_apply, cast_eq]
  refine block_entry (iblk m c 0 t) (iblk m c 1 t) (iblk m c 2 t) (V m c main_v82) (V m c main_arg2) (V m c main_arg3)
    ((cfg0.win 3).xinj (grid0.coords t) j) _ ?_ ?_ ?_
  · unfold iblk
    rw [View.read_apply, cast_eq]
    refine congrArg (V m c main_arg3) (funext fun a => Fin.ext ?_)
    match a with
    | ⟨0, _⟩ => show win0_2.index t (0 : Fin 1) * 1 + 1 * 0 = 0; omega
  · intro k
    unfold iblk
    rw [View.read_apply, cast_eq]
    refine congrArg (V m c main_v82) (funext fun a => Fin.ext ?_)
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 320 + 1 * k.val = k.val; omega
  · intro k
    unfold iblk
    rw [View.read_apply, cast_eq]
    refine congrArg (V m c main_arg2) (funext fun a => Fin.ext ?_)
    match a with
    | ⟨0, _⟩ => show win0_1.index t (0 : Fin 2) * 320 + 1 * k.val = k.val; omega
    | ⟨1, _⟩ => show win0_1.index t (1 : Fin 2) * 64 + 1 * (j 1).val = win0_3.index t (1 : Fin 2) * 64 + 1 * (j 1).val; omega

/-- An index of the result array is in point `t`'s block iff each coordinate is in the block's range on its axis. -/
theorem mem_blk (t : Fin cfg0.N) (i : S196608x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v83).slice (win0_3.rect t)).set ↔ _
  rw [View.set_slice_whole, Rect.mem_set_unit]
  exact Iff.rfl

/-- Every index of the result array is in some point's block: row `r` is in block `r / 4096`. -/
theorem cover (i : S196608x64.Idx) :
    ∃ t : Fin cfg0.N, (cfg0.win 3).flush t = true ∧ i ∈ ((cfg0.win 3).blk t).view.set := by
  have hi0 : (i 0).val < 196608 := (i 0).isLt
  have hi1 : (i 1).val < 64 := (i 1).isLt
  have ht : (i 0).val / 4096 < grid0.N := by rw [N_0]; omega
  obtain ⟨-, -, -, -, -, e30, e31⟩ := idx_facts ⟨(i 0).val / 4096, ht⟩
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    have e : win0_3.index ⟨(i 0).val / 4096, ht⟩ (0 : Fin 2) = (i 0).val / 4096 := e30
    omega
  | ⟨1, _⟩ =>
    show win0_3.index ⟨(i 0).val / 4096, ht⟩ (1 : Fin 2) * 64 ≤ (i 1).val ∧ (i 1).val < win0_3.index ⟨(i 0).val / 4096, ht⟩ (1 : Fin 2) * 64 + 64
    omega

/-- The result array after the region. -/
theorem final (c : Dev nD) :
    (dats m 0 c).arrAt 3 cfg0.N = Spec.combine (V m c main_v82) (V m c main_arg2) (V m c main_arg3) :=
  (dats m 0 c).arrAt_eq_of_cover 3 _ (fun t _ => flushed_eq m c t) cover

/-- The program's result: the one host line after the region gives the result array a leading axis of extent one. -/
theorem tail_eq (c : Dev nD) :
    Pipeline.afterTail₀ cfgs (dats m) 0 (V0 m) [hostOps1] c main_v84
      = shapeCast S1x196608x64 (Spec.combine (V m c main_v82) (V m c main_arg2) (V m c main_arg3))
          shapeCasts_S196608x64_S1x196608x64 := by
  unfold Pipeline.afterTail₀
  show StableHlo.after hostOps1 _ (Proc.devRef .tc main_v84) = _
  after_results
  have h := (Pipeline.withArrays_arr (Val := Elt Ideal) spec0 launch0.win.arr_inj c (V0 m c)
    (fun w => (dats m 0 c).arrAt w cfg0.N) 3).trans (final m c)
  exact congrArg (fun A => shapeCast S1x196608x64 A shapeCasts_S196608x64_S1x196608x64) h

/-- The run, read: the program's result is the specification of the arrays the region found, with a leading axis of
    extent one; the six argument arrays end as launched. -/
theorem run_value : θ_run defs (onTc (τ := τ) (main (F := Ideal))) ⟨m, fun _ => 0, ρ⟩ (fun r => ∀ c : Dev nD,
      r.2.mem ((c.tc : Thread nD τ).loc main_v84)
        = shapeCast S1x196608x64 (Spec.combine (V m c main_v82) (V m c main_arg2) (V m c main_arg3))
            shapeCasts_S196608x64_S1x196608x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v84 (Pipeline.mem_restRefs_of main_v84 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.LibConcatFive.lean ====
/-
  A host operation that reads a LITERAL family of five buffers (a concatenation of five arrays), after it has run.

  The operation's result is its function applied to the family of its operands' contents. When the family is the
  literal list `![x, a, b, c, e]`, that family of contents is the explicit tuple of the five buffers' contents, each
  read at its own buffer — the form in which the contents of each operand can be computed further, one buffer at a
  time. Stated for any signature, element types and function; the second form leaves the result buffer out of the
  rewriting index so that it can be used as a rewrite rule from inside a nest of earlier operations.
-/
import Idealize.ShloMosaic.Lib.StableHlo.Run

noncomputable section

namespace Cert.LibConcatFive

open Idealize.ShloMosaic Idealize.ShloMosaic.StableHlo Idealize.SL.Sem

variable {τ : Topo} {sig : RefSig} {Val : EltTy → Type}
variable {x a b c e y : Ref sig .tc}

/-- The result of an operation over five literal operands: its function at the tuple of their contents. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same as a rewrite rule. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Cert.LibConcatFive

end
-- ==== Proof.FeatBridge.lean ====
/-
  The matrix the region reads is the reference's feature array, flattened.

  Both programs run the same 105 host lines first: the index arrays normalised (a negative index taken from the end),
  the sparse product `L·y` as a gather of rows of `y` scaled by the edge values and scatter-added into a zero array,
  the recurrence `T₁ = L·x`, `Tₖ = 2·L·Tₖ₋₁ − Tₖ₋₂`, and the five terms `x, T₁, …, T₄` joined along the feature axis into
  an array of shape 1 × 196608 × 320. The kernel's program then drops the leading axis. Running its lines from the
  launch contents, one buffer at a time, gives for each term of the recurrence the reference's own term of the same
  four arguments, operation for operation; the joined array is then the same join of the same five arrays. Nothing
  about the sparse product itself is used.
-/
import proofs.«150697_j75883482185958_1_alg».proof.Proof.KernelIdealFrame
import proofs.«150697_j75883482185958_1_alg».proof.Proof.Gen.ReferenceIdeal.Read
import proofs.«150697_j75883482185958_1_alg».proof.Proof.LibConcatFive
import Idealize.ShloMosaic.Lib.StableHlo.Run

set_option maxRecDepth 16384

noncomputable section

namespace Cert.KernelIdeal.Feat

open Idealize.ShloMosaic Idealize.ShloMosaic.TcCoe Idealize.SL.Sem Idealize.ShloMosaic.StableHlo
open Cert.KernelIdeal Cert.KernelIdeal.Gen Cert.KernelIdeal.Frame

variable (m : (ℓ : Loc nD τ sig) → Buf (Elt Ideal) ℓ)

set_option maxHeartbeats 40000000 in
/-- The first term of the recurrence, `T₁ = L·x`, as the region finds it. -/
theorem term_v17 (c : Dev nD) :
    V m c main_v17 = Cert.ReferenceIdeal.Read.val_main_v17 (F := Ideal) (m ((c : Thread nD τ).loc main_arg0))
        (m ((c : Thread nD τ).loc main_arg1)) (m ((c : Thread nD τ).loc main_arg4)) (m ((c : Thread nD τ).loc main_arg5)) := by
  show StableHlo.after hostOps0 (fun b => m (c, b)) (Proc.devRef .tc main_v17) = _
  simp (disch := decide) only [after_cons, after_nil, nullary_result', unary_result', binary_result', ternary_result',
    quaternary_result', reshape_result', nullary_result_ne', unary_result_ne',
    binary_result_ne', ternary_result_ne', quaternary_result_ne', reshape_result_ne', nary_result_ne']
  rfl

set_option maxHeartbeats 40000000 in
/-- The second term, `T₂ = 2·L·T₁ − x`. -/
theorem term_v38 (c : Dev nD) :
    V m c main_v38 = Cert.ReferenceIdeal.Read.val_main_v38 (F := Ideal) (m ((c : Thread nD τ).loc main_arg0))
        (m ((c : Thread nD τ).loc main_arg1)) (m ((c : Thread nD τ).loc main_arg4)) (m ((c : Thread nD τ).loc main_arg5)) := by
  show StableHlo.after hostOps0 (fun b => m (c, b)) (Proc.devRef .tc main_v38) = _
  simp (disch := decide) only [after_cons, after_nil, nullary_result', unary_result', binary_result', ternary_result',
    quaternary_result', reshape_result', nullary_result_ne', unary_result_ne',
    binary_result_ne', ternary_result_ne', quaternary_result_ne', reshape_result_ne', nary_result_ne']
  rfl

set_option maxHeartbeats 40000000 in
/-- The third term, `T₃ = 2·L·T₂ − T₁`. -/
theorem term_v59 (c : Dev nD) :
    V m c main_v59 = Cert.ReferenceIdeal.Read.val_main_v59 (F := Ideal) (m ((c : Thread nD τ).loc main_arg0))
        (m ((c : Thread nD τ).loc main_arg1)) (m ((c : Thread nD τ).loc main_arg4)) (m ((c : Thread nD τ).loc main_arg5)) := by
  show StableHlo.after hostOps0 (fun b => m (c, b)) (Proc.devRef .tc main_v59) = _
  simp (disch := decide) only [after_cons, after_nil, nullary_result', unary_result', binary_result', ternary_result',
    quaternary_result', reshape_result', nullary_result_ne', unary_result_ne',
    binary_result_ne', ternary_result_ne', quaternary_result_ne', reshape_result_ne', nary_result_ne']
  rfl

set_option maxHeartbeats 40000000 in
/-- The fourth term, `T₄ = 2·L·T₃ − T₂`. -/
theorem term_v80 (c : Dev nD) :
    V m c main_v80 = Cert.ReferenceIdeal.Read.val_main_v80 (F := Ideal) (m ((c : Thread nD τ).loc main_arg0))
        (m ((c : Thread nD τ).loc main_arg1)) (m ((c : Thread nD τ).loc main_arg4)) (m ((c : Thread nD τ).loc main_arg5)) := by
  show StableHlo.after hostOps0 (fun b => m (c, b)) (Proc.devRef .tc main_v80) = _
  simp (disch := decide) only [after_cons, after_nil, nullary_result', unary_result', binary_result', ternary_result',
    quaternary_result', reshape_result', nullary_result_ne', unary_result_ne',
    binary_result_ne', ternary_result_ne', quaternary_result_ne', reshape_result_ne', nary_result_ne']
  rfl

set_option maxHeartbeats 4000000 in
/-- The last two host lines before the region: the five terms joined along the feature axis, and the leading axis
    of extent one dropped. Neither line writes any of the five terms. -/
theorem matrix_join (c : Dev nD) :
    V m c main_v82 = shapeCast S196608x320
      (concatenate S1x196608x320 2 [⟨S1x196608x64, V m c main_arg0⟩, ⟨S1x196608x64, V m c main_v17⟩,
        ⟨S1x196608x64, V m c main_v38⟩, ⟨S1x196608x64, V m c main_v59⟩, ⟨S1x196608x64, V m c main_v80⟩]
        concatenates_S1x196608x64_S1x196608x64_S1x196608x64_S1x196608x64_S1x196608x64_S1x196608x320_d2)
      shapeCasts_S1x196608x320_S196608x320 := by
  have e : ∀ b : Ref sig .tc, V m c b = StableHlo.after hostOps0 (fun b => m (c, b)) (Proc.devRef .tc b) := fun _ => rfl
  rw [e main_v82, e main_arg0, e main_v17, e main_v38, e main_v59, e main_v80]
  simp only [after_cons, after_nil]
  rw [reshape_result, Cert.LibConcatFive.nary5_result]
  repeat (first
    | (rw [reshape_result_ne]; rotate_left; decide)
    | (rw [nary_result_ne]; rotate_left; decide))
  rfl

/-- The region-entry contents of the matrix: the reference's joined array of the same four arguments, with its
    leading axis of extent one dropped. -/
theorem matrix_eq (c : Dev nD) :
    V m c main_v82 = shapeCast S196608x320
      (Cert.ReferenceIdeal.Read.val_main_v81 (F := Ideal) (m ((c : Thread nD τ).loc main_arg0))
        (m ((c : Thread nD τ).loc main_arg1)) (m ((c : Thread nD τ).loc main_arg4)) (m ((c : Thread nD τ).loc main_arg5)))
      shapeCasts_S1x196608x320_S196608x320 := by
  rw [matrix_join, V_main_arg0, term_v17, term_v38, term_v59, term_v80]
  rfl

end Cert.KernelIdeal.Feat

end
-- ==== Proof.RefResult.lean ====
/-
  The reference's result at one entry, on extended reals.

  After the joined array `Y` (1 × 196608 × 320) the reference contracts its last axis with the first axis of the weight,
  compares the product with zero, repeats the one-entry slope over the whole result, multiplies, and chooses. Entry
  `(u, r, f)` is therefore `prelu (slope 0) (∑ k, Y (u, r, k) · weight (k, f))`: the contraction's operand indices at
  output `(u, r, f)` and position `k` are `(u, r, k)` and `(k, f)`; a repeated axis of extent one reads coordinate `0`.
-/
import proofs.«150697_j75883482185958_1_alg».proof.Proof.Gen.ReferenceIdeal.Read
import proofs.«150697_j75883482185958_1_alg».proof.Proof.Spec
import Idealize.ShloMosaic.Lib.ValueIdx

noncomputable section

namespace Cert.ReferenceIdeal.Result

open Idealize.ShloMosaic Idealize.ShloMosaic.ValueIdx
open Cert.ReferenceIdeal Cert.ReferenceIdeal.Gen Cert.ReferenceIdeal.Read

theorem ref_apply (x0 : (⟨S1x196608x64, .f32⟩ : BufTy).Contents (Elt Ideal)) (x1 : (⟨S1572864, .f32⟩ : BufTy).Contents (Elt Ideal))
    (x2 : (⟨S320x64, .f32⟩ : BufTy).Contents (Elt Ideal)) (x3 : (⟨S1, .f32⟩ : BufTy).Contents (Elt Ideal))
    (x4 x5 : (⟨S1572864, .i32⟩ : BufTy).Contents (Elt Ideal)) (u : Fin 1) (r : Fin 196608) (f : Fin 64) :
    val_main_v88 (F := Ideal) x0 x1 x2 x3 x4 x5 (ix3 u r f)
      = Spec.prelu (x3 (ix1 (0 : Fin 1)))
          (∑ k : Fin 320, val_main_v81 (F := Ideal) x0 x1 x4 x5 (ix3 u r k) * x2 (ix2 k f)) := by
  have el : ∀ k : Fin 320, lidx_main_v82 (ix3 u r f) k = ix3 u r k := fun k => funext fun a => Fin.ext (by
    match a with
    | ⟨0, _⟩ => rfl
    | ⟨1, _⟩ => rfl
    | ⟨2, _⟩ => rfl)
  have er : ∀ k : Fin 320, ridx_main_v82 (ix3 u r f) k = ix2 k f := fun k => funext fun a => Fin.ext (by
    match a with
    | ⟨0, _⟩ => rfl
    | ⟨1, _⟩ => rfl)
  have e3 : idx_main_v85 (idx_main_v86 (ix3 u r f)) = ix1 (0 : Fin 1) := funext fun a => Fin.ext (by
    match a with
    | ⟨0, _⟩ => rfl)
  rw [val_main_v88_apply, val_main_v84_apply, val_main_v87_apply, val_main_v86_apply, val_main_v85_apply,
    val_main_v83_apply, val_main_cst_21_apply, val_main_v82_apply]
  simp only [el, er, e3]
  rfl

end Cert.ReferenceIdeal.Result

end
-- ==== Proof.Equal.lean ====
/-
  One function for both programs' results.

  `resultOf` is the specification applied to the joined array `Y` of the reference's recurrence (as a function of the
  argument arrays), with `Y`'s leading axis of extent one dropped before the combine and put back after it — the way
  the kernel's program arranges it. The reference contracts the rank-3 array directly; entry `(u, r, f)` of either is
  `prelu (slope 0) (∑ k, Y (0, r, k) · weight (k, f))`, because dropping or adding an axis of extent one moves no entry
  (row-major position `(0·196608 + r)·n + k = r·n + k`) and `u : Fin 1` is `0`.
-/
import proofs.«150697_j75883482185958_1_alg».proof.Proof.RefResult
import Idealize.ShloMosaic.Lib.ValueLayout
import Idealize.ShloMosaic.Lib.Pipeline.Value

noncomputable section

namespace Cert.Equal

open Idealize.ShloMosaic Idealize.ShloMosaic.ValueIdx
open Cert.ReferenceIdeal Cert.ReferenceIdeal.Gen Cert.ReferenceIdeal.Read

/-- The result both programs end with, as a function of the six argument arrays. -/
def resultOf (x0 : (⟨S1x196608x64, .f32⟩ : BufTy).Contents (Elt Ideal)) (x1 : (⟨S1572864, .f32⟩ : BufTy).Contents (Elt Ideal))
    (x2 : (⟨S320x64, .f32⟩ : BufTy).Contents (Elt Ideal)) (x3 : (⟨S1, .f32⟩ : BufTy).Contents (Elt Ideal))
    (x4 x5 : (⟨S1572864, .i32⟩ : BufTy).Contents (Elt Ideal))
    (h1 : (⟨3, ![1, 196608, 320]⟩ : Shape).ShapeCasts ⟨2, ![196608, 320]⟩)
    (h2 : (⟨2, ![196608, 64]⟩ : Shape).ShapeCasts ⟨3, ![1, 196608, 64]⟩) :
    (⟨3, ![1, 196608, 64]⟩ : Shape).Idx → EReal :=
  shapeCast ⟨3, ![1, 196608, 64]⟩
    (Spec.combine (shapeCast ⟨2, ![196608, 320]⟩ (val_main_v81 (F := Ideal) x0 x1 x4 x5) h1) x2 x3) h2

/-- The reference's last stage is `resultOf` of its arguments. -/
theorem ref_is_result (x0 : (⟨S1x196608x64, .f32⟩ : BufTy).Contents (Elt Ideal)) (x1 : (⟨S1572864, .f32⟩ : BufTy).Contents (Elt Ideal))
    (x2 : (⟨S320x64, .f32⟩ : BufTy).Contents (Elt Ideal)) (x3 : (⟨S1, .f32⟩ : BufTy).Contents (Elt Ideal))
    (x4 x5 : (⟨S1572864, .i32⟩ : BufTy).Contents (Elt Ideal)) (h1 h2) :
    val_main_v88 (F := Ideal) x0 x1 x2 x3 x4 x5 = resultOf x0 x1 x2 x3 x4 x5 h1 h2 := by
  funext i
  obtain ⟨u, r, f, rfl⟩ : ∃ (u : Fin 1) (r : Fin 196608) (f : Fin 64), i = ix3 u r f := ⟨i 0, i 1, i 2, eq_ix3 i⟩
  have hu : u = 0 := Fin.ext (by omega)
  subst hu
  rw [Result.ref_apply]
  unfold resultOf
  rw [shapeCast_ab_1ab_apply, Spec.combine_apply]
  refine congrArg (Spec.prelu (x3 (ix1 (0 : Fin 1)))) (Finset.sum_congr rfl fun k _ => ?_)
  rw [shapeCast_1ab_ab_apply]

end Cert.Equal

end
-- ==== Proof.lean ====
/-
  The dense combine and leaky rectifier after a sparse Chebyshev recurrence: the kernel's program and its reference
  compute the same array on extended reals.

  Both programs first run the same host lines: `T₀ = x`, `T₁ = L·x`, `Tₖ = 2·L·Tₖ₋₁ − Tₖ₋₂` with `L·y` a gather of rows of
  `y` scaled by the edge values and scatter-added into zeros, and the five terms joined along the feature axis (320
  columns per vertex). The kernel's program then flattens the joined array to 196608 × 320, runs ONE region over 48
  blocks of 4096 rows — each block times the 320 × 64 weight, then `z ↦ z` where `z > 0` and `slope · z` elsewhere — and
  reshapes the result; the reference contracts the joined array with the weight in one product and applies the same
  rectifier. Entry `(0, r, f)` of either result is `prelu (slope) (∑ k, Y (0, r, k) · weight (k, f))` (`Spec.combine`):
  a change of float format is the identity on extended reals, and a sum does not depend on how it is blocked. No
  finiteness of the inputs is needed, so the precondition is never opened.

  The frames: every host line writes a buffer of its own, the region writes only its result array, so the six
  arguments end as launched (`Frame.frame`, for the word-level program and the idealized one alike); the reference has
  no region and its run is read back directly. The idealization rewrote nothing, so `preserves` is `True`.
-/
import proofs.«150697_j75883482185958_1_alg».proof.Defs
import proofs.«150697_j75883482185958_1_alg».proof.Proof.Gen.Kernel
import proofs.«150697_j75883482185958_1_alg».proof.Proof.Gen.KernelIdeal
import proofs.«150697_j75883482185958_1_alg».proof.Proof.Gen.ReferenceIdeal
import proofs.«150697_j75883482185958_1_alg».proof.Proof.Gen.ReferenceIdeal.Run
import proofs.«150697_j75883482185958_1_alg».proof.Proof.Gen.ReferenceIdeal.Read
import proofs.«150697_j75883482185958_1_alg».proof.Proof.Gen.Pre_finite_inputs
import proofs.«150697_j75883482185958_1_alg».proof.Proof.KernelFrame
import proofs.«150697_j75883482185958_1_alg».proof.Proof.KernelIdealFrame
import proofs.«150697_j75883482185958_1_alg».proof.Proof.KernelResult
import proofs.«150697_j75883482185958_1_alg».proof.Proof.FeatBridge
import proofs.«150697_j75883482185958_1_alg».proof.Proof.Equal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
/-- The reference has no region: its run, read back, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with `Equal.resultOf` of the arguments: the kernel's
    because the matrix its region reads is the reference's joined array flattened and the region's blocks tile the
    result; the reference's because its last stage is that function. -/
theorem algebraic : Cert.algebraic_KernelIdeal_ReferenceIdeal := by
  intro m ρ m' ρ' _ hagree
  refine ⟨fun c => Cert.Equal.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      Cert.KernelIdeal.Gen.shapeCasts_S1x196608x320_S196608x320 Cert.KernelIdeal.Gen.shapeCasts_S196608x64_S1x196608x64, ?_, ?_⟩
  · refine (θ_run Cert.KernelIdeal.defs _ _).mono (fun _ h c => ⟨(h c).1.trans ?_, (h c).2⟩)
      (Cert.KernelIdeal.Result.run_value m ρ)
    rw [Cert.KernelIdeal.Feat.matrix_eq, Cert.KernelIdeal.Frame.V_main_arg2, Cert.KernelIdeal.Frame.V_main_arg3]
    rfl
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, (hagree c).1, (hagree c).2.1, (hagree c).2.2.1, (hagree c).2.2.2.1,
      (hagree c).2.2.2.2.1, (hagree c).2.2.2.2.2]
    exact Cert.Equal.ref_is_result _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
